-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x128 : Shape := ⟨2, ![256, 128]⟩
abbrev S128 : Shape := ⟨1, ![128]⟩
abbrev S128x256 : Shape := ⟨2, ![128, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S128x256 .f32) (main_arg5 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S10000x256 .f32) (main_arg1 : FVec F S10000x10000 .f32) (main_arg2 : FVec F S256x128 .f32) (main_arg3 : FVec F S128 .f32) (main_arg4 : FVec F S128x256 .f32) (main_arg5 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x256 : Shape := ⟨2, ![10000, 256]⟩
abbrev S10000x10000 : Shape := ⟨2, ![10000, 10000]⟩
abbrev S256x128 : Shape := ⟨2, ![256, 128]⟩
abbrev S128 : Shape := ⟨1, ![128]⟩
abbrev S128x256 : Shape := ⟨2, ![128, 256]⟩
abbrev S256 : Shape := ⟨1, ![256]⟩
abbrev S1x128 : Shape := ⟨2, ![1, 128]⟩
abbrev S1x256 : Shape := ⟨2, ![1, 256]⟩
abbrev S10000x128 : Shape := ⟨2, ![10000, 128]⟩
abbrev S400x10000 : Shape := ⟨2, ![400, 10000]⟩
abbrev S400x256 : Shape := ⟨2, ![400, 256]⟩
abbrev S400x128 : Shape := ⟨2, ![400, 128]⟩

abbrev nBuf : Space → Nat
  | .hbm => 12
  | .vmem => 18
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S1x128, .f32⟩
  | .hbm, ⟨7, _⟩ => ⟨S1x256, .f32⟩
  | .hbm, ⟨8, _⟩ => ⟨S10000x128, .bf16⟩
  | .hbm, ⟨9, _⟩ => ⟨S10000x256, .bf16⟩
  | .hbm, ⟨10, _⟩ => ⟨S10000x10000, .bf16⟩
  | .hbm, ⟨11, _⟩ => ⟨S10000x256, .f32⟩
  | .local _ .vmem, ⟨0, _⟩ => ⟨S10000x256, .f32⟩
  | .local _ .vmem, ⟨1, _⟩ => ⟨S256x128, .f32⟩
  | .local _ .vmem, ⟨2, _⟩ => ⟨S10000x128, .bf16⟩
  | .local _ .vmem, ⟨3, _⟩ => ⟨S400x10000, .f32⟩
  | .local _ .vmem, ⟨4, _⟩ => ⟨S400x10000, .f32⟩
  | .local _ .vmem, ⟨5, _⟩ => ⟨S10000x128, .bf16⟩
  | .local _ .vmem, ⟨6, _⟩ => ⟨S1x128, .f32⟩
  | .local _ .vmem, ⟨7, _⟩ => ⟨S128x256, .f32⟩
  | .local _ .vmem, ⟨8, _⟩ => ⟨S400x256, .bf16⟩
  | .local _ .vmem, ⟨9, _⟩ => ⟨S400x256, .bf16⟩
  | .local _ .vmem, ⟨10, _⟩ => ⟨S400x10000, .bf16⟩
  | .local _ .vmem, ⟨11, _⟩ => ⟨S400x10000, .bf16⟩
  | .local _ .vmem, ⟨12, _⟩ => ⟨S400x10000, .bf16⟩
  | .local _ .vmem, ⟨13, _⟩ => ⟨S400x10000, .bf16⟩
  | .local _ .vmem, ⟨14, _⟩ => ⟨S10000x256, .bf16⟩
  | .local _ .vmem, ⟨15, _⟩ => ⟨S1x256, .f32⟩
  | .local _ .vmem, ⟨16, _⟩ => ⟨S400x256, .f32⟩
  | .local _ .vmem, ⟨17, _⟩ => ⟨S400x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3_0 : Ref sig .tc := ⟨.hbm, 9, rfl⟩
abbrev main_call0_v3_1 : Ref sig .tc := ⟨.hbm, 10, rfl⟩
abbrev main_v0 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := .none

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x10000 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S128_S1x128 : S128.ShapeCasts S1x128
  shapeCasts_S256_S1x256 : S256.ShapeCasts S1x256
  inb_S10000x256_S10000x256_0_0 : ∀ a, (![0, 0] : Fin 2 → Nat) a + S10000x256.size a ≤ S10000x256.size a
  h_S10000x256 : 0 < S10000x256.numel
  inb_S256x128_S256x128_0_0 : ∀ a, (![0, 0] : Fin 2 → Nat) a + S256x128.size a ≤ S256x128.size a
  h_S256x128 : 0 < S256x128.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x256_S128x256_0_0 : ∀ a, (![0, 0] : Fin 2 → Nat) a + S128x256.size a ≤ S128x256.size a
  h_S128x256 : 0 < S128x256.numel
  inb_S400x256_S400x256_0_0 : ∀ a, (![0, 0] : Fin 2 → Nat) a + S400x256.size a ≤ S400x256.size a
  h_S400x256 : 0 < S400x256.numel
  packedbf16_S400x256_S400x256_0_0 : (Rect.unit (s := S400x256) ![0, 0] S400x256.size inb_S400x256_S400x256_0_0).PackedRows (EltTy.packing .bf16)
  shapeCasts_S400x10000_S400x10000 : S400x10000.ShapeCasts S400x10000
  shapeCasts_S10000x256_S10000x256 : S10000x256.ShapeCasts S10000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  dot_S10000x256_S256x128_S10000x128_1_0_0_1_n_n_wf : DotDims.WF S10000x256 S256x128 S10000x128 [1] [0] [0] [1] [] []
  dot_S400x10000_S10000x128_S400x128_1_0_0_1_n_n_wf : DotDims.WF S400x10000 S10000x128 S400x128 [1] [0] [0] [1] [] []
  dot_S400x128_S128x256_S400x256_1_0_0_1_n_n_wf : DotDims.WF S400x128 S128x256 S400x256 [1] [0] [0] [1] [] []
  dot_S400x10000_S10000x256_S400x256_1_0_0_1_n_n_wf : DotDims.WF S400x10000 S10000x256 S400x256 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x256.size a ≤ S10000x256.size a
  hwx1_4 : ∀ i : grid1.Coords, EltTy.bits .bf16 = 32 ∨ (Rect.block (s := S10000x256) S400x256.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x10000.size a ≤ S10000x10000.size a
  hwx1_5 : ∀ i : grid1.Coords, EltTy.bits .bf16 = 32 ∨ (Rect.block (s := S10000x10000) S400x10000.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x256.size a ≤ S10000x256.size a
  hwx2_1 : ∀ i : grid2.Coords, EltTy.bits .bf16 = 32 ∨ (Rect.block (s := S10000x256) S10000x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x256.size a ≤ S10000x256.size a
  hwx2_3 : ∀ i : grid2.Coords, EltTy.bits .f32 = 32 ∨ (Rect.block (s := S10000x256) S400x256.size (cc2_transform_3 i) (hinb2_3 i)).WholeWords (EltTy.packing .f32)

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x256_S400x256_1_0_0_1_n_n : DotDims S400x128 S128x256 S400x256 where
  lhsContracting := [1]
  rhsContracting := [0]
  lhsNonContracting := [0]
  rhsNonContracting := [1]
  lhsBatch := []
  rhsBatch := []
  wf := dot_S400x128_S128x256_S400x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_call0_v2) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v0) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v3_0) S400x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_call0_v3_1) S400x10000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v3_1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v3_0) S10000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v1) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S400x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x128 : Shape := ⟨2, ![256, 128]⟩
abbrev S128 : Shape := ⟨1, ![128]⟩
abbrev S128x256 : Shape := ⟨2, ![128, 256]⟩
abbrev S256 : Shape := ⟨1, ![256]⟩
abbrev S10000x128 : Shape := ⟨2, ![10000, 128]⟩
abbrev S1x128 : Shape := ⟨2, ![1, 128]⟩
abbrev S_ : Shape := ⟨0, ![]⟩
abbrev S1x256 : Shape := ⟨2, ![1, 256]⟩

abbrev nBuf : Space → Nat
  | .hbm => 19
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x256, .f32⟩
  | .hbm, ⟨15, _⟩ => ⟨S10000x256, .f32⟩
  | .hbm, ⟨16, _⟩ => ⟨S1x256, .f32⟩
  | .hbm, ⟨17, _⟩ => ⟨S10000x256, .f32⟩
  | .hbm, ⟨18, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  dot_S10000x256_S256x128_S10000x128_1_0_0_1_n_n_wf : DotDims.WF S10000x256 S256x128 S10000x128 [1] [0] [0] [1] [] []
  dot_S10000x10000_S10000x128_S10000x128_1_0_0_1_n_n_wf : DotDims.WF S10000x10000 S10000x128 S10000x128 [1] [0] [0] [1] [] []
  dot_S10000x128_S128x256_S10000x256_1_0_0_1_n_n_wf : DotDims.WF S10000x128 S128x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.KernelRun.lean ====
/-
  The idealized kernel's run, with its result named.

  The program is a stretch of two host reshapes followed by three regions. The run threads the buffer contents through the
  four segment boundaries; at the last boundary every unscoped buffer holds what the fold through the segments leaves
  there. Read at the final state, that gives the result array as the last region's output array after its write-backs, and
  the six argument arrays as launched.
-/
import proofs.«163679_g62732292325833_cont_9to1c4b_592_4_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the contents of its buffer at the
    last segment boundary, and each argument array ends as launched. -/
theorem run_boundary : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Run

end
-- ==== Proof.Payload.lean ====
/-
  The arithmetic of the three kernel bodies, at explicit coordinates, over the extended reals.

  Each body's stored value is a pure function of the blocks it loads. A product into a zero accumulator is, entry by entry,
  the sum over the contracted axis of a row of the left operand times a column of the right one; rounding to bf16 is the
  identity on the extended reals; a one-row bias broadcast over the rows of a block is the bias at the entry's column.
-/
import proofs.«163679_g62732292325833_cont_9to1c4b_592_4_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen
open Idealize.ShloMosaic Idealize.ShloMosaic.TcCoe Idealize.ShloMosaic.ValueIdx

/-! ## The four products -/

/-! ### the whole-array product `x · W1` of the first region -/

theorem lhs0_xw (i : S10000x128.Idx) (g : dot_S10000x256_S256x128_S10000x128_1_0_0_1_n_n.contr.Idx) : (dot_S10000x256_S256x128_S10000x128_1_0_0_1_n_n.lhsIdx i g 0).val = (i 0).val := by
  unfold DotDims.lhsIdx
  rw [dif_neg (show ¬(0 : Fin S10000x256.rank) ∈ dot_S10000x256_S256x128_S10000x128_1_0_0_1_n_n.lhsBatch by decide), dif_pos (show (0 : Fin S10000x256.rank) ∈ dot_S10000x256_S256x128_S10000x128_1_0_0_1_n_n.lhsNonContracting by decide)]
  rfl
theorem rhs1_xw (i : S10000x128.Idx) (g : dot_S10000x256_S256x128_S10000x128_1_0_0_1_n_n.contr.Idx) : (dot_S10000x256_S256x128_S10000x128_1_0_0_1_n_n.rhsIdx i g 1).val = (i 1).val := by
  unfold DotDims.rhsIdx
  rw [dif_neg (show ¬(1 : Fin S256x128.rank) ∈ dot_S10000x256_S256x128_S10000x128_1_0_0_1_n_n.rhsBatch by decide), dif_pos (show (1 : Fin S256x128.rank) ∈ dot_S10000x256_S256x128_S10000x128_1_0_0_1_n_n.rhsNonContracting by decide)]
  rfl
/-- Entry `(p, q)` of the product accumulated into the zero splat: the sum over the contracted axis of row `p` of the left
    operand times column `q` of the right one. -/
theorem mm_xw {φ₁ φ₂ : FTy} (l : FVec Ideal S10000x256 φ₁) (r : FVec Ideal S256x128 φ₂) (p : Fin 10000) (q : Fin 128) :
    matmul dot_S10000x256_S256x128_S10000x128_1_0_0_1_n_n none l r (constant S10000x128 .f32 0x00000000#32) (ix2 p q) = ∑ k : Fin 256, l (ix2 p k) * r (ix2 k q) := by
  show FloatOps.matmul dot_S10000x256_S256x128_S10000x128_1_0_0_1_n_n none l r (constant S10000x128 .f32 0x00000000#32) (ix2 p q) = _
  rw [Ideal.matmul_constant_zero_apply, ← Equiv.sum_comp (ValueIdx.contrEquiv1 dot_S10000x256_S256x128_S10000x128_1_0_0_1_n_n 256 rfl rfl).symm]
  refine Finset.sum_congr rfl fun k _ => ?_
  have hk := ValueIdx.contrEquiv1_symm_val dot_S10000x256_S256x128_S10000x128_1_0_0_1_n_n 256 rfl rfl k
  have el : dot_S10000x256_S256x128_S10000x128_1_0_0_1_n_n.lhsIdx (ix2 p q) ((ValueIdx.contrEquiv1 dot_S10000x256_S256x128_S10000x128_1_0_0_1_n_n 256 rfl rfl).symm k) = ix2 p k := funext fun a => Fin.ext (by
    match a with
    | ⟨0, _⟩ => exact lhs0_xw _ _
    | ⟨1, _⟩ => exact (dot_S10000x256_S256x128_S10000x128_1_0_0_1_n_n.lhsIdx_val_of_single rfl _ _).trans hk)
  have er : dot_S10000x256_S256x128_S10000x128_1_0_0_1_n_n.rhsIdx (ix2 p q) ((ValueIdx.contrEquiv1 dot_S10000x256_S256x128_S10000x128_1_0_0_1_n_n 256 rfl rfl).symm k) = ix2 k q := funext fun a => Fin.ext (by
    match a with
    | ⟨0, _⟩ => exact (dot_S10000x256_S256x128_S10000x128_1_0_0_1_n_n.rhsIdx_val_of_single rfl _ _).trans hk
    | ⟨1, _⟩ => exact rhs1_xw _ _)
  rw [el, er]

/-! ### a 400-row block of `adj` times the first support -/

theorem lhs0_as1 (i : S400x128.Idx) (g : dot_S400x10000_S10000x128_S400x128_1_0_0_1_n_n.contr.Idx) : (dot_S400x10000_S10000x128_S400x128_1_0_0_1_n_n.lhsIdx i g 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem rhs1_as1 (i : S400x128.Idx) (g : dot_S400x10000_S10000x128_S400x128_1_0_0_1_n_n.contr.Idx) : (dot_S400x10000_S10000x128_S400x128_1_0_0_1_n_n.rhsIdx i g 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl
/-- Entry `(p, q)` of the product accumulated into the zero splat: the sum over the contracted axis of row `p` of the left
    operand times column `q` of the right one. -/
theorem mm_as1 {φ₁ φ₂ : FTy} (l : FVec Ideal S400x10000 φ₁) (r : FVec Ideal S10000x128 φ₂) (p : Fin 400) (q : Fin 128) :
    matmul dot_S400x10000_S10000x128_S400x128_1_0_0_1_n_n none l r (constant S400x128 .f32 0x00000000#32) (ix2 p q) = ∑ k : Fin 10000, l (ix2 p k) * r (ix2 k q) := by
  show FloatOps.matmul dot_S400x10000_S10000x128_S400x128_1_0_0_1_n_n none l r (constant S400x128 .f32 0x00000000#32) (ix2 p q) = _
  rw [Ideal.matmul_constant_zero_apply, ← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx (ix2 p q) ((ValueIdx.contrEquiv1 dot_S400x10000_S10000x128_S400x128_1_0_0_1_n_n 10000 rfl rfl).symm k) = ix2 p k := funext fun a => Fin.ext (by
    match a with
    | ⟨0, _⟩ => exact lhs0_as1 _ _
    | ⟨1, _⟩ => exact (dot_S400x10000_S10000x128_S400x128_1_0_0_1_n_n.lhsIdx_val_of_single rfl _ _).trans hk)
  have er : dot_S400x10000_S10000x128_S400x128_1_0_0_1_n_n.rhsIdx (ix2 p q) ((ValueIdx.contrEquiv1 dot_S400x10000_S10000x128_S400x128_1_0_0_1_n_n 10000 rfl rfl).symm k) = ix2 k q := funext fun a => Fin.ext (by
    match a with
    | ⟨0, _⟩ => exact (dot_S400x10000_S10000x128_S400x128_1_0_0_1_n_n.rhsIdx_val_of_single rfl _ _).trans hk
    | ⟨1, _⟩ => exact rhs1_as1 _ _)
  rw [el, er]

/-! ### a 400-row block of the hidden layer times `W2` -/

theorem lhs0_hw (i : S400x256.Idx) (g : dot_S400x128_S128x256_S400x256_1_0_0_1_n_n.contr.Idx) : (dot_S400x128_S128x256_S400x256_1_0_0_1_n_n.lhsIdx i g 0).val = (i 0).val := by
  unfold DotDims.lhsIdx
  rw [dif_neg (show ¬(0 : Fin S400x128.rank) ∈ dot_S400x128_S128x256_S400x256_1_0_0_1_n_n.lhsBatch by decide), dif_pos (show (0 : Fin S400x128.rank) ∈ dot_S400x128_S128x256_S400x256_1_0_0_1_n_n.lhsNonContracting by decide)]
  rfl
theorem rhs1_hw (i : S400x256.Idx) (g : dot_S400x128_S128x256_S400x256_1_0_0_1_n_n.contr.Idx) : (dot_S400x128_S128x256_S400x256_1_0_0_1_n_n.rhsIdx i g 1).val = (i 1).val := by
  unfold DotDims.rhsIdx
  rw [dif_neg (show ¬(1 : Fin S128x256.rank) ∈ dot_S400x128_S128x256_S400x256_1_0_0_1_n_n.rhsBatch by decide), dif_pos (show (1 : Fin S128x256.rank) ∈ dot_S400x128_S128x256_S400x256_1_0_0_1_n_n.rhsNonContracting by decide)]
  rfl
/-- Entry `(p, q)` of the product accumulated into the zero splat: the sum over the contracted axis of row `p` of the left
    operand times column `q` of the right one. -/
theorem mm_hw {φ₁ φ₂ : FTy} (l : FVec Ideal S400x128 φ₁) (r : FVec Ideal S128x256 φ₂) (p : Fin 400) (q : Fin 256) :
    matmul dot_S400x128_S128x256_S400x256_1_0_0_1_n_n none l r (constant S400x256 .f32 0x00000000#32) (ix2 p q) = ∑ k : Fin 128, l (ix2 p k) * r (ix2 k q) := by
  show FloatOps.matmul dot_S400x128_S128x256_S400x256_1_0_0_1_n_n none l r (constant S400x256 .f32 0x00000000#32) (ix2 p q) = _
  rw [Ideal.matmul_constant_zero_apply, ← Equiv.sum_comp (ValueIdx.contrEquiv1 dot_S400x128_S128x256_S400x256_1_0_0_1_n_n 128 rfl rfl).symm]
  refine Finset.sum_congr rfl fun k _ => ?_
  have hk := ValueIdx.contrEquiv1_symm_val dot_S400x128_S128x256_S400x256_1_0_0_1_n_n 128 rfl rfl k
  have el : dot_S400x128_S128x256_S400x256_1_0_0_1_n_n.lhsIdx (ix2 p q) ((ValueIdx.contrEquiv1 dot_S400x128_S128x256_S400x256_1_0_0_1_n_n 128 rfl rfl).symm k) = ix2 p k := funext fun a => Fin.ext (by
    match a with
    | ⟨0, _⟩ => exact lhs0_hw _ _
    | ⟨1, _⟩ => exact (dot_S400x128_S128x256_S400x256_1_0_0_1_n_n.lhsIdx_val_of_single rfl _ _).trans hk)
  have er : dot_S400x128_S128x256_S400x256_1_0_0_1_n_n.rhsIdx (ix2 p q) ((ValueIdx.contrEquiv1 dot_S400x128_S128x256_S400x256_1_0_0_1_n_n 128 rfl rfl).symm k) = ix2 k q := funext fun a => Fin.ext (by
    match a with
    | ⟨0, _⟩ => exact (dot_S400x128_S128x256_S400x256_1_0_0_1_n_n.rhsIdx_val_of_single rfl _ _).trans hk
    | ⟨1, _⟩ => exact rhs1_hw _ _)
  rw [el, er]

/-! ### a 400-row block of `adj` times the second support -/

theorem lhs0_as2 (i : S400x256.Idx) (g : dot_S400x10000_S10000x256_S400x256_1_0_0_1_n_n.contr.Idx) : (dot_S400x10000_S10000x256_S400x256_1_0_0_1_n_n.lhsIdx i g 0).val = (i 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
theorem rhs1_as2 (i : S400x256.Idx) (g : dot_S400x10000_S10000x256_S400x256_1_0_0_1_n_n.contr.Idx) : (dot_S400x10000_S10000x256_S400x256_1_0_0_1_n_n.rhsIdx i g 1).val = (i 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl
/-- Entry `(p, q)` of the product accumulated into the zero splat: the sum over the contracted axis of row `p` of the left
    operand times column `q` of the right one. -/
theorem mm_as2 {φ₁ φ₂ : FTy} (l : FVec Ideal S400x10000 φ₁) (r : FVec Ideal S10000x256 φ₂) (p : Fin 400) (q : Fin 256) :
    matmul dot_S400x10000_S10000x256_S400x256_1_0_0_1_n_n none l r (constant S400x256 .f32 0x00000000#32) (ix2 p q) = ∑ k : Fin 10000, l (ix2 p k) * r (ix2 k q) := by
  show FloatOps.matmul dot_S400x10000_S10000x256_S400x256_1_0_0_1_n_n none l r (constant S400x256 .f32 0x00000000#32) (ix2 p q) = _
  rw [Ideal.matmul_constant_zero_apply, ← Equiv.sum_comp (ValueIdx.contrEquiv1 dot_S400x10000_S10000x256_S400x256_1_0_0_1_n_n 10000 rfl rfl).symm]
  refine Finset.sum_congr rfl fun k _ => ?_
  have hk := ValueIdx.contrEquiv1_symm_val dot_S400x10000_S10000x256_S400x256_1_0_0_1_n_n 10000 rfl rfl k
  have el : dot_S400x10000_S10000x256_S400x256_1_0_0_1_n_n.lhsIdx (ix2 p q) ((ValueIdx.contrEquiv1 dot_S400x10000_S10000x256_S400x256_1_0_0_1_n_n 10000 rfl rfl).symm k) = ix2 p k := funext fun a => Fin.ext (by
    match a with
    | ⟨0, _⟩ => exact lhs0_as2 _ _
    | ⟨1, _⟩ => exact (dot_S400x10000_S10000x256_S400x256_1_0_0_1_n_n.lhsIdx_val_of_single rfl _ _).trans hk)
  have er : dot_S400x10000_S10000x256_S400x256_1_0_0_1_n_n.rhsIdx (ix2 p q) ((ValueIdx.contrEquiv1 dot_S400x10000_S10000x256_S400x256_1_0_0_1_n_n 10000 rfl rfl).symm k) = ix2 k q := funext fun a => Fin.ext (by
    match a with
    | ⟨0, _⟩ => exact (dot_S400x10000_S10000x256_S400x256_1_0_0_1_n_n.rhsIdx_val_of_single rfl _ _).trans hk
    | ⟨1, _⟩ => exact rhs1_as2 _ _)
  rw [el, er]

/-! ## A one-row bias broadcast over the rows of a block -/

/-- Entry `(p, q)` of a `[1, 128]` row broadcast to `[400, 128]` is the row's entry `q`. -/
theorem bcast_row128 (v : FVec Ideal S1x128 .f32) (p : Fin 400) (q : Fin 128) :
    broadcastTo S400x128 v broadcasts_S1x128_S400x128 (ix2 p q) = v (ix2 (0 : Fin 1) q) :=
  broadcastTo_apply v broadcasts_S1x128_S400x128 (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- Entry `(p, q)` of a `[1, 256]` row broadcast to `[400, 256]` is the row's entry `q`. -/
theorem bcast_row256 (v : FVec Ideal S1x256 .f32) (p : Fin 400) (q : Fin 256) :
    broadcastTo S400x256 v broadcasts_S1x256_S400x256 (ix2 p q) = v (ix2 (0 : Fin 1) q) :=
  broadcastTo_apply v broadcasts_S1x256_S400x256 (ix2 p q) (ix2 (0 : Fin 1) q) (fun a => match a with
    | ⟨0, _⟩ => by show (0 : Nat) = if (1 : Nat) = 1 then 0 else p.val; rw [if_pos rfl]
    | ⟨1, _⟩ => by show q.val = if (256 : Nat) = 1 then 0 else q.val; rw [if_neg (by decide)])

/-! ## The payloads -/

/-- The first region stores `x · W1`. -/
theorem pay0_at (v0 : Vec Ideal S10000x256 .f32) (v1 : Vec Ideal S256x128 .f32) (p : Fin 10000) (q : Fin 128) :
    k0_pay1 (F := Ideal) v0 v1 (ix2 p q) = ∑ k : Fin 256, v0 (ix2 p k) * v1 (ix2 k q) := by
  unfold k0_pay1
  exact mm_xw (φ₁ := .f32) (φ₂ := .f32) v0 v1 p q

/-- The second region's copy of its `adj` block is the block. -/
theorem pay1_copy (v0 : Vec Ideal S400x10000 .f32) : k1_pay1 (F := Ideal) v0 = v0 := rfl

/-- The second region stores `relu (adjblock · s1 + b1) · W2`. -/
theorem pay1_at (v0 : Vec Ideal S400x10000 .f32) (v3 : Vec Ideal S10000x128 .bf16) (v6 : Vec Ideal S1x128 .f32)
    (v12 : Vec Ideal S128x256 .f32) (p : Fin 400) (q : Fin 256) :
    k1_pay2 (F := Ideal) v0 v3 v6 v12 (ix2 p q)
      = ∑ k : Fin 128, max ((∑ j : Fin 10000, v0 (ix2 p j) * v3 (ix2 j k)) + v6 (ix2 (0 : Fin 1) k)) (Ideal.ofBits .f32 0x00000000#32)
          * v12 (ix2 k q) := by
  unfold k1_pay2
  refine (mm_hw (φ₁ := .f32) (φ₂ := .f32) _ v12 p q).trans ?_
  refine Finset.sum_congr rfl fun k _ => ?_
  refine congrArg (· * v12 (ix2 k q)) ?_
  show max (matmul (F := Ideal) (φ₁ := .bf16) (φ₂ := .bf16) dot_S400x10000_S10000x128_S400x128_1_0_0_1_n_n none (k1_pay1 v0) (shapeCast S10000x128 v3 shapeCasts_S10000x128_S10000x128)
      (constant S400x128 .f32 0x00000000#32) (ix2 p k)
    + broadcastTo S400x128 (shapeCast S1x128 v6 shapeCasts_S1x128_S1x128) broadcasts_S1x128_S400x128 (ix2 p k)) (Ideal.ofBits .f32 0x00000000#32) = _
  rw [shapeCast_self, shapeCast_self, mm_as1 (φ₁ := .bf16) (φ₂ := .bf16), bcast_row128, pay1_copy]

/-- The third region stores `adjblock · s2 + b2`. -/
theorem pay2_at (v0 : Vec Ideal S400x10000 .bf16) (v2 : Vec Ideal S10000x256 .bf16) (v5 : Vec Ideal S1x256 .f32)
    (p : Fin 400) (q : Fin 256) :
    k2_pay1 (F := Ideal) v0 v2 v5 (ix2 p q) = (∑ j : Fin 10000, v0 (ix2 p j) * v2 (ix2 j q)) + v5 (ix2 (0 : Fin 1) q) := by
  unfold k2_pay1
  show matmul (F := Ideal) (φ₁ := .bf16) (φ₂ := .bf16) dot_S400x10000_S10000x256_S400x256_1_0_0_1_n_n none (shapeCast S400x10000 v0 shapeCasts_S400x10000_S400x10000)
      (shapeCast S10000x256 v2 shapeCasts_S10000x256_S10000x256) (constant S400x256 .f32 0x00000000#32) (ix2 p q)
    + broadcastTo S400x256 (shapeCast S1x256 v5 shapeCasts_S1x256_S1x256) broadcasts_S1x256_S400x256 (ix2 p q) = _
  rw [shapeCast_self, shapeCast_self, shapeCast_self, mm_as2 (φ₁ := .bf16) (φ₂ := .bf16), bcast_row256]

end Cert.KernelIdeal.Payload

end
-- ==== Proof.Spec.lean ====
/-
  The function both programs compute, over the extended reals: a two-layer graph convolution with a dense adjacency,

      out = adj · (relu (adj · (x · W1) + b1) · W2) + b2,

  written entry by entry over explicit row and column coordinates. Each matrix product is a finite sum over the contracted
  axis; addition and multiplication on the extended reals are commutative and associative, so a finite sum does not depend
  on the order of its terms, and no finiteness of the inputs is needed: both programs associate the products the same way.
  The zero that relu compares with is kept as the float word both programs print.
-/
import Idealize.ShloMosaic.PureOps.Ideal
import Idealize.ShloMosaic.Lib.ValueIdx

noncomputable section

namespace Cert.Gcn

open Idealize.ShloMosaic Idealize.ShloMosaic.ValueIdx

/-- A matrix of extended reals with `a` rows and `b` columns. -/
abbrev Mat (a b : Nat) : Type := (⟨2, ![a, b]⟩ : Shape).Idx → EReal
/-- A vector of extended reals of length `a`. -/
abbrev Row (a : Nat) : Type := (⟨1, ![a]⟩ : Shape).Idx → EReal

/-- The first support `x · W1`, at row `p` and column `q`. -/
def support1 (x : Mat 10000 256) (w1 : Mat 256 128) (p : Fin 10000) (q : Fin 128) : EReal :=
  ∑ k : Fin 256, x (ix2 p k) * w1 (ix2 k q)

/-- The hidden layer `relu (adj · (x · W1) + b1)`, at row `p` and column `q`. -/
def hidden (x : Mat 10000 256) (adj : Mat 10000 10000) (w1 : Mat 256 128) (b1 : Row 128) (p : Fin 10000) (q : Fin 128) : EReal :=
  max ((∑ j : Fin 10000, adj (ix2 p j) * support1 x w1 j q) + b1 (ix1 q)) (Ideal.ofBits .f32 0x00000000#32)

/-- The second support `hidden · W2`, at row `p` and column `q`. -/
def support2 (x : Mat 10000 256) (adj : Mat 10000 10000) (w1 : Mat 256 128) (b1 : Row 128) (w2 : Mat 128 256)
    (p : Fin 10000) (q : Fin 256) : EReal :=
  ∑ k : Fin 128, hidden x adj w1 b1 p k * w2 (ix2 k q)

/-- The output `adj · (hidden · W2) + b2`, at row `p` and column `q`. -/
def output (x : Mat 10000 256) (adj : Mat 10000 10000) (w1 : Mat 256 128) (b1 : Row 128) (w2 : Mat 128 256) (b2 : Row 256)
    (p : Fin 10000) (q : Fin 256) : EReal :=
  (∑ j : Fin 10000, adj (ix2 p j) * support2 x adj w1 b1 w2 j q) + b2 (ix1 q)

/-- The three intermediate arrays and the result as whole matrices. -/
def Support1 (x : Mat 10000 256) (w1 : Mat 256 128) : Mat 10000 128 := fun i => support1 x w1 (i 0) (i 1)
def Support2 (x : Mat 10000 256) (adj : Mat 10000 10000) (w1 : Mat 256 128) (b1 : Row 128) (w2 : Mat 128 256) : Mat 10000 256 :=
  fun i => support2 x adj w1 b1 w2 (i 0) (i 1)
def Output (x : Mat 10000 256) (adj : Mat 10000 10000) (w1 : Mat 256 128) (b1 : Row 128) (w2 : Mat 128 256) (b2 : Row 256) : Mat 10000 256 :=
  fun i => output x adj w1 b1 w2 b2 (i 0) (i 1)

theorem Support1_ix2 (x : Mat 10000 256) (w1 : Mat 256 128) (p : Fin 10000) (q : Fin 128) :
    Support1 x w1 (ix2 p q) = support1 x w1 p q := rfl
theorem Support2_ix2 (x : Mat 10000 256) (adj : Mat 10000 10000) (w1 : Mat 256 128) (b1 : Row 128) (w2 : Mat 128 256)
    (p : Fin 10000) (q : Fin 256) : Support2 x adj w1 b1 w2 (ix2 p q) = support2 x adj w1 b1 w2 p q := rfl
theorem Output_ix2 (x : Mat 10000 256) (adj : Mat 10000 10000) (w1 : Mat 256 128) (b1 : Row 128) (w2 : Mat 128 256) (b2 : Row 256)
    (p : Fin 10000) (q : Fin 256) : Output x adj w1 b1 w2 b2 (ix2 p q) = output x adj w1 b1 w2 b2 p q := rfl

/-! ## The same function, one region at a time

Each of the kernel's last two regions computes its output from the arrays it finds, whatever they hold: the second from the
adjacency, an array standing for the first support, a one-row bias and `W2`; the third from the adjacency, an array standing for
the second support, and a one-row bias. Composed on the first support they are the specification, definitionally. -/

/-- A bias vector as the one-row matrix a reshape makes of it. -/
def rowOf {n : Nat} (b : Row n) : Mat 1 n := fun i => b (ix1 (i 1))

/-- `relu (adj · s + b) · W2` at row `p` and column `q`, for any array `s` and one-row bias `b`. -/
def layer1 (adj : Mat 10000 10000) (s : Mat 10000 128) (b : Mat 1 128) (w2 : Mat 128 256) (p : Fin 10000) (q : Fin 256) : EReal :=
  ∑ k : Fin 128, max ((∑ j : Fin 10000, adj (ix2 p j) * s (ix2 j k)) + b (ix2 (0 : Fin 1) k)) (Ideal.ofBits .f32 0x00000000#32)
    * w2 (ix2 k q)

/-- `adj · s + b` at row `p` and column `q`, for any array `s` and one-row bias `b`. -/
def layer2 (adj : Mat 10000 10000) (s : Mat 10000 256) (b : Mat 1 256) (p : Fin 10000) (q : Fin 256) : EReal :=
  (∑ j : Fin 10000, adj (ix2 p j) * s (ix2 j q)) + b (ix2 (0 : Fin 1) q)

def Layer1 (adj : Mat 10000 10000) (s : Mat 10000 128) (b : Mat 1 128) (w2 : Mat 128 256) : Mat 10000 256 :=
  fun i => layer1 adj s b w2 (i 0) (i 1)
def Layer2 (adj : Mat 10000 10000) (s : Mat 10000 256) (b : Mat 1 256) : Mat 10000 256 :=
  fun i => layer2 adj s b (i 0) (i 1)

theorem Layer1_ix2 (adj : Mat 10000 10000) (s : Mat 10000 128) (b : Mat 1 128) (w2 : Mat 128 256) (p : Fin 10000) (q : Fin 256) :
    Layer1 adj s b w2 (ix2 p q) = layer1 adj s b w2 p q := rfl
theorem Layer2_ix2 (adj : Mat 10000 10000) (s : Mat 10000 256) (b : Mat 1 256) (p : Fin 10000) (q : Fin 256) :
    Layer2 adj s b (ix2 p q) = layer2 adj s b p q := rfl

/-- The second region on the first support is the second support. -/
theorem Layer1_Support1 (x : Mat 10000 256) (adj : Mat 10000 10000) (w1 : Mat 256 128) (b1 : Row 128) (w2 : Mat 128 256) :
    Layer1 adj (Support1 x w1) (rowOf b1) w2 = Support2 x adj w1 b1 w2 := rfl

/-- The third region on the second support is the output. -/
theorem Layer2_Support2 (x : Mat 10000 256) (adj : Mat 10000 10000) (w1 : Mat 256 128) (b1 : Row 128) (w2 : Mat 128 256) (b2 : Row 256) :
    Layer2 adj (Support2 x adj w1 b1 w2) (rowOf b2) = Output x adj w1 b1 w2 b2 := rfl

end Cert.Gcn

end
-- ==== Proof.Region0.lean ====
/-
  The first region: `x · W1`, in one block.

  The region has no grid: its one point loads both of its arrays whole and writes its output whole. What it writes back is
  the product of the two arrays it finds, and its one block covers the output array.
-/
import proofs.«163679_g62732292325833_cont_9to1c4b_592_4_alg».proof.Proof.Gen.KernelIdeal.Frame
import proofs.«163679_g62732292325833_cont_9to1c4b_592_4_alg».proof.Proof.Payload
import proofs.«163679_g62732292325833_cont_9to1c4b_592_4_alg».proof.Proof.Spec

import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.KernelIdeal.Payload Cert.Gcn

variable (V : (c : Dev nD) → (b : Ref sig .tc) → Buf (Elt Ideal) ((c : Thread nD τ).loc b))

theorem hz : (![0, 0] : Fin 2 → Nat) = fun _ => 0 := funext fun a => by fin_cases a <;> rfl

/-- Every window's block sits at the origin of its array. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The first window's block is its whole array. -/
theorem blk0_at (c : Dev nD) (t : Fin cfg0.N) (p : Fin 10000) (k : Fin 256) :
    (iblk0 V c 0 t : Vec Ideal S10000x256 .f32) (ix2 p k)
      = (V c main_arg0 : S10000x256.Idx → EReal) (ix2 p k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 10000 + 1 * p.val = p.val; rw [e0]; omega
  | ⟨1, _⟩ => show win0_0.index t (1 : Fin 2) * 256 + 1 * k.val = k.val; rw [e1]; omega

/-- The second window's block is its whole array. -/
theorem blk1_at (c : Dev nD) (t : Fin cfg0.N) (k : Fin 256) (q : Fin 128) :
    (iblk0 V c 1 t : Vec Ideal S256x128 .f32) (ix2 k q)
      = (V c main_arg2 : S256x128.Idx → EReal) (ix2 k q) := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t (0 : Fin 2) * 256 + 1 * k.val = k.val; rw [e0]; omega
  | ⟨1, _⟩ => show win0_1.index t (1 : Fin 2) * 128 + 1 * q.val = q.val; rw [e1]; omega

/-- What the one point writes back is the product of the two arrays the region finds. -/
theorem flushed_eq (c : Dev nD) (t : Fin cfg0.N) :
    (dat0 V c).flushed 2 t = ((cfg0.win 2).blk t).view.read (Elt Ideal) (Support1 (V c main_arg0) (V c main_arg2)) := by
  show (cfg0.win 2).cut (grid0.coords t) ((dat0 V c).after 2 t) = _
  rw [after0_2]
  unfold out0_2
  rw [View.canon_unit_zero hz]
  simp only [View.ld_unit_zero (S := S10000x256) hz, View.ld_unit_zero (S := S256x128) hz]
  funext y
  obtain ⟨p, q, rfl⟩ : ∃ (p : Fin 10000) (q : Fin 128), y = ix2 p q := ⟨y 0, y 1, eq_ix2 y⟩
  show k0_pay1 (iblk0 V c 0 t) (iblk0 V c 1 t) (ix2 p q) = _
  refine (pay0_at (iblk0 V c 0 t) (iblk0 V c 1 t) p q).trans ?_
  rw [View.read_apply]
  show _ = Support1 (V c main_arg0) (V c main_arg2) (((View.whole main_call0_v2).slice ((win0 2).rect t)).emb (ix2 p q))
  have hemb : ((View.whole main_call0_v2).slice ((win0 2).rect t)).emb (ix2 p q) = ix2 p q := by
    obtain ⟨-, -, -, -, e0, e1⟩ := idx_facts t
    funext a
    apply Fin.ext
    match a with
    | ⟨0, _⟩ => show win0_2.index t (0 : Fin 2) * 10000 + 1 * p.val = p.val; rw [e0]; omega
    | ⟨1, _⟩ => show win0_2.index t (1 : Fin 2) * 128 + 1 * q.val = q.val; rw [e1]; omega
  rw [hemb, Support1_ix2]
  unfold support1
  exact Finset.sum_congr rfl fun k _ => by rw [blk0_at, blk1_at]

/-- An index of the array is in point `t`'s block iff each coordinate is in the block's range on its axis. -/
theorem mem_blk (t : Fin cfg0.N) (i : S10000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_call0_v2).slice (win0_2.rect t)).set ↔ _
  rw [View.set_slice_whole, Rect.mem_set_unit]
  exact Iff.rfl

/-- Every index of the output is in the one point's block. -/
theorem cover (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  have hN : cfg0.N = 1 := N_0
  obtain ⟨t, ht⟩ : ∃ t : Fin cfg0.N, t.val = (i 0).val / 10000 := ⟨⟨(i 0).val / 10000, by omega⟩, rfl⟩
  obtain ⟨-, -, -, -, e0, e1⟩ := idx_facts t
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    rw [e0]; omega
  | ⟨1, _⟩ =>
    show win0_2.index t (1 : Fin 2) * 128 ≤ (i 1).val ∧ (i 1).val < win0_2.index t (1 : Fin 2) * 128 + 128
    rw [e1]; omega

/-- The output array after the region is the product of the two arrays the region finds. -/
theorem final (c : Dev nD) :
    (dat0 V c).arrAt 2 cfg0.N = Support1 (V c main_arg0) (V c main_arg2) :=
  (dat0 V c).arrAt_eq_of_cover 2 _ (fun t _ => flushed_eq V c t) cover

end Cert.KernelIdeal.Region0

end
-- ==== Proof.Region1.lean ====
/-
  The second region: `relu (adj · s + b) · W2` and a copy of `adj`, block by block.

  The region runs over 25 grid points. At point `t` it loads rows `400 t … 400 t + 399` of the adjacency and the whole of its
  other three arrays (an array standing for the first support, a one-row bias, and `W2`); it writes back rows `400 t … 400 t + 399`
  of two outputs: `relu (adjblock · s + b) · W2`, and the adjacency block itself rounded to bf16, which on the extended reals
  is the block. What point `t` writes back is block `t` of one whole-array function of the arrays the region finds, the 25
  blocks tile each output's rows, and each output array ends as its function.
-/
import proofs.«163679_g62732292325833_cont_9to1c4b_592_4_alg».proof.Proof.Gen.KernelIdeal.Frame
import proofs.«163679_g62732292325833_cont_9to1c4b_592_4_alg».proof.Proof.Payload
import proofs.«163679_g62732292325833_cont_9to1c4b_592_4_alg».proof.Proof.Spec

import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.KernelIdeal.Payload Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The block index of each window at each of the 25 points: the adjacency and the two outputs move down the rows with the
    point, the other three windows stay at the origin. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 25 := by have h := t.isLt; have e : cfg1.N = 25 := N_1; omega

/-- Row `p` of the adjacency block at point `t` is row `400 t + p` of the adjacency. -/
theorem blk0_at (c : Dev nD) (t : Fin cfg1.N) (p : Fin 400) (j : Fin 10000) :
    (iblk1 V c 0 t : Vec Ideal S400x10000 .f32) (ix2 p j)
      = (V c main_arg1 : S10000x10000.Idx → EReal) (ix2 (⟨t.val * 400 + p.val, by have := t_lt t; have := p.isLt; omega⟩ : Fin 10000) j) := by
  obtain ⟨e0, e1, -⟩ := idx_facts t
  unfold iblk1
  rw [View.read_apply]
  show V c main_arg1 _ = V c main_arg1 _
  congr 1
  funext a
  apply Fin.ext
  match a with
  | ⟨0, _⟩ => show win1_0.index t (0 : Fin 2) * 400 + 1 * p.val = t.val * 400 + p.val; rw [e0]; omega
  | ⟨1, _⟩ => show win1_0.index t (1 : Fin 2) * 10000 + 1 * j.val = j.val; rw [e1]; omega

/-- The second window's block is its whole array. -/
theorem blk1_at (c : Dev nD) (t : Fin cfg1.N) (j : Fin 10000) (k : Fin 128) :
    (iblk1 V c 1 t : Vec Ideal S10000x128 .bf16) (ix2 j k)
      = (V c main_call0_v2 : S10000x128.Idx → EReal) (ix2 j k) := by
  obtain ⟨-, -, e0, e1, -⟩ := idx_facts t
  unfold iblk1
  rw [View.read_apply]
  show V c main_call0_v2 _ = V c main_call0_v2 _
  congr 1
  funext a
  apply Fin.ext
  match a with
  | ⟨0, _⟩ => show win1_1.index t (0 : Fin 2) * 10000 + 1 * j.val = j.val; rw [e0]; omega
  | ⟨1, _⟩ => show win1_1.index t (1 : Fin 2) * 128 + 1 * k.val = k.val; rw [e1]; omega

/-- The third window's block is its whole one-row array. -/
theorem blk2_at (c : Dev nD) (t : Fin cfg1.N) (k : Fin 128) :
    (iblk1 V c 2 t : Vec Ideal S1x128 .f32) (ix2 (0 : Fin 1) k)
      = (V c main_call0_v0 : S1x128.Idx → EReal) (ix2 (0 : Fin 1) k) := by
  obtain ⟨-, -, -, -, e0, e1, -⟩ := idx_facts t
  unfold iblk1
  rw [View.read_apply]
  show V c main_call0_v0 _ = V c main_call0_v0 _
  congr 1
  funext a
  apply Fin.ext
  match a with
  | ⟨0, _⟩ => show win1_2.index t (0 : Fin 2) * 1 + 1 * 0 = 0; rw [e0]
  | ⟨1, _⟩ => show win1_2.index t (1 : Fin 2) * 128 + 1 * k.val = k.val; rw [e1]; omega

/-- The fourth window's block is its whole array. -/
theorem blk3_at (c : Dev nD) (t : Fin cfg1.N) (k : Fin 128) (q : Fin 256) :
    (iblk1 V c 3 t : Vec Ideal S128x256 .f32) (ix2 k q)
      = (V c main_arg4 : S128x256.Idx → EReal) (ix2 k q) := by
  obtain ⟨-, -, -, -, -, -, e0, e1, -⟩ := idx_facts t
  unfold iblk1
  rw [View.read_apply]
  show V c main_arg4 _ = V c main_arg4 _
  congr 1
  funext a
  apply Fin.ext
  match a with
  | ⟨0, _⟩ => show win1_3.index t (0 : Fin 2) * 128 + 1 * k.val = k.val; rw [e0]; omega
  | ⟨1, _⟩ => show win1_3.index t (1 : Fin 2) * 256 + 1 * q.val = q.val; rw [e1]; omega

/-! ## The first output: `relu (adj · s + b) · W2` -/

/-- What point `t` writes back to the first output is block `t` of `relu (adj · s + b) · W2` of the arrays the region finds. -/
theorem flushed_eq4 (c : Dev nD) (t : Fin cfg1.N) :
    (dat1 V c).flushed 4 t = ((cfg1.win 4).blk t).view.read (Elt Ideal) (Layer1 (V c main_arg1) (V c main_call0_v2) (V c main_call0_v0) (V c main_arg4)) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x128) hz, View.ld_unit_zero (S := S1x128) hz,
    View.ld_unit_zero (S := S128x256) hz]
  funext y
  obtain ⟨p, q, rfl⟩ : ∃ (p : Fin 400) (q : Fin 256), y = ix2 p q := ⟨y 0, y 1, eq_ix2 y⟩
  show k1_pay2 (iblk1 V c 0 t) (iblk1 V c 1 t) (iblk1 V c 2 t) (iblk1 V c 3 t) (ix2 p q) = _
  refine (pay1_at (iblk1 V c 0 t) (iblk1 V c 1 t) (iblk1 V c 2 t) (iblk1 V c 3 t) p q).trans ?_
  rw [View.read_apply]
  show _ = Layer1 (V c main_arg1) (V c main_call0_v2) (V c main_call0_v0) (V c main_arg4)
    (((View.whole main_call0_v3_0).slice ((win1 4).rect t)).emb (ix2 p q))
  have hemb : ((View.whole main_call0_v3_0).slice ((win1 4).rect t)).emb (ix2 p q)
      = ix2 (⟨t.val * 400 + p.val, by have := t_lt t; have := p.isLt; omega⟩ : Fin 10000) q := by
    obtain ⟨-, -, -, -, -, -, -, -, e0, e1, -⟩ := idx_facts t
    funext a
    apply Fin.ext
    match a with
    | ⟨0, _⟩ => show win1_4.index t (0 : Fin 2) * 400 + 1 * p.val = t.val * 400 + p.val; rw [e0]; omega
    | ⟨1, _⟩ => show win1_4.index t (1 : Fin 2) * 256 + 1 * q.val = q.val; rw [e1]; omega
  rw [hemb, Layer1_ix2]
  unfold layer1
  refine Finset.sum_congr rfl fun k _ => ?_
  rw [blk2_at, blk3_at]
  refine congrArg (fun s => max (s + _) _ * _) ?_
  exact Finset.sum_congr rfl fun j _ => by rw [blk0_at, blk1_at]

/-- An index of the array is in point `t`'s block iff each coordinate is in the block's range on its axis. -/
theorem mem_blk4 (t : Fin cfg1.N) (i : S10000x256.Idx) :
    i ∈ ((cfg1.win 4).blk t).view.set ↔ ∀ a : Fin 2, win1_4.index t a * S400x256.size a ≤ (i a).val
      ∧ (i a).val < win1_4.index t a * S400x256.size a + S400x256.size a := by
  show i ∈ ((View.whole main_call0_v3_0).slice (win1_4.rect t)).set ↔ _
  rw [View.set_slice_whole, Rect.mem_set_unit]
  exact Iff.rfl

/-- Row `r` of the first output is in the block of point `r / 400`: the 25 blocks tile the rows. -/
theorem cover4 (i : S10000x256.Idx) :
    ∃ t : Fin cfg1.N, (cfg1.win 4).flush t = true ∧ i ∈ ((cfg1.win 4).blk t).view.set := by
  have hi0 : (i 0).val < 10000 := (i 0).isLt
  have hi1 : (i 1).val < 256 := (i 1).isLt
  have hN : cfg1.N = 25 := N_1
  obtain ⟨t, ht⟩ : ∃ t : Fin cfg1.N, t.val = (i 0).val / 400 := ⟨⟨(i 0).val / 400, by omega⟩, rfl⟩
  obtain ⟨-, -, -, -, -, -, -, -, e0, e1, -⟩ := idx_facts t
  refine ⟨t, flush1_4 t, ?_⟩
  rw [mem_blk4]
  intro a
  match a with
  | ⟨0, _⟩ =>
    show win1_4.index t (0 : Fin 2) * 400 ≤ (i 0).val ∧ (i 0).val < win1_4.index t (0 : Fin 2) * 400 + 400
    rw [e0, ht]; omega
  | ⟨1, _⟩ =>
    show win1_4.index t (1 : Fin 2) * 256 ≤ (i 1).val ∧ (i 1).val < win1_4.index t (1 : Fin 2) * 256 + 256
    rw [e1]; omega

/-- The first output array after the region is `relu (adj · s + b) · W2` of the arrays the region finds. -/
theorem final4 (c : Dev nD) :
    (dat1 V c).arrAt 4 cfg1.N = Layer1 (V c main_arg1) (V c main_call0_v2) (V c main_call0_v0) (V c main_arg4) :=
  (dat1 V c).arrAt_eq_of_cover 4 _ (fun t _ => flushed_eq4 V c t) cover4

/-! ## The second output: the adjacency, copied -/

/-- What point `t` writes back to the second output is block `t` of the adjacency. -/
theorem flushed_eq5 (c : Dev nD) (t : Fin cfg1.N) :
    (dat1 V c).flushed 5 t = ((cfg1.win 5).blk t).view.read (Elt Ideal) (V c main_arg1 : S10000x10000.Idx → EReal) := by
  show (cfg1.win 5).cut (grid1.coords t) ((dat1 V c).after 5 t) = _
  rw [after1_5]
  unfold out1_5
  rw [View.canon_unit_zero hz]
  simp only [View.ld_unit_zero (S := S400x10000) hz]
  funext y
  obtain ⟨p, j, rfl⟩ : ∃ (p : Fin 400) (j : Fin 10000), y = ix2 p j := ⟨y 0, y 1, eq_ix2 y⟩
  show k1_pay1 (iblk1 V c 0 t) (ix2 p j) = _
  rw [pay1_copy, View.read_apply]
  show _ = (V c main_arg1 : S10000x10000.Idx → EReal) (((View.whole main_call0_v3_1).slice ((win1 5).rect t)).emb (ix2 p j))
  have hemb : ((View.whole main_call0_v3_1).slice ((win1 5).rect t)).emb (ix2 p j)
      = ix2 (⟨t.val * 400 + p.val, by have := t_lt t; have := p.isLt; omega⟩ : Fin 10000) j := by
    obtain ⟨-, -, -, -, -, -, -, -, -, -, e0, e1⟩ := idx_facts t
    funext a
    apply Fin.ext
    match a with
    | ⟨0, _⟩ => show win1_5.index t (0 : Fin 2) * 400 + 1 * p.val = t.val * 400 + p.val; rw [e0]; omega
    | ⟨1, _⟩ => show win1_5.index t (1 : Fin 2) * 10000 + 1 * j.val = j.val; rw [e1]; omega
  rw [hemb, blk0_at]

/-- An index of the array is in point `t`'s block iff each coordinate is in the block's range on its axis. -/
theorem mem_blk5 (t : Fin cfg1.N) (i : S10000x10000.Idx) :
    i ∈ ((cfg1.win 5).blk t).view.set ↔ ∀ a : Fin 2, win1_5.index t a * S400x10000.size a ≤ (i a).val
      ∧ (i a).val < win1_5.index t a * S400x10000.size a + S400x10000.size a := by
  show i ∈ ((View.whole main_call0_v3_1).slice (win1_5.rect t)).set ↔ _
  rw [View.set_slice_whole, Rect.mem_set_unit]
  exact Iff.rfl

/-- Row `r` of the second output is in the block of point `r / 400`: the 25 blocks tile the rows. -/
theorem cover5 (i : S10000x10000.Idx) :
    ∃ t : Fin cfg1.N, (cfg1.win 5).flush t = true ∧ i ∈ ((cfg1.win 5).blk t).view.set := by
  have hi0 : (i 0).val < 10000 := (i 0).isLt
  have hi1 : (i 1).val < 10000 := (i 1).isLt
  have hN : cfg1.N = 25 := N_1
  obtain ⟨t, ht⟩ : ∃ t : Fin cfg1.N, t.val = (i 0).val / 400 := ⟨⟨(i 0).val / 400, by omega⟩, rfl⟩
  obtain ⟨-, -, -, -, -, -, -, -, -, -, e0, e1⟩ := idx_facts t
  refine ⟨t, flush1_5 t, ?_⟩
  rw [mem_blk5]
  intro a
  match a with
  | ⟨0, _⟩ =>
    show win1_5.index t (0 : Fin 2) * 400 ≤ (i 0).val ∧ (i 0).val < win1_5.index t (0 : Fin 2) * 400 + 400
    rw [e0, ht]; omega
  | ⟨1, _⟩ =>
    show win1_5.index t (1 : Fin 2) * 10000 ≤ (i 1).val ∧ (i 1).val < win1_5.index t (1 : Fin 2) * 10000 + 10000
    rw [e1]; omega

/-- The second output array after the region is the adjacency the region finds. -/
theorem final5 (c : Dev nD) :
    (dat1 V c).arrAt 5 cfg1.N = (V c main_arg1 : S10000x10000.Idx → EReal) :=
  (dat1 V c).arrAt_eq_of_cover 5 _ (fun t _ => flushed_eq5 V c t) cover5

end Cert.KernelIdeal.Region1

end
-- ==== Proof.Region2.lean ====
/-
  The third region: `adj · s + b`, block by block.

  The region runs over 25 grid points. At point `t` it loads rows `400 t … 400 t + 399` of its first array, the whole of
  its second array and its one-row third array, and writes back rows `400 t … 400 t + 399` of its output. So what point `t` writes
  back is block `t` of one whole-array function of the arrays the region finds, the 25 blocks tile the output's rows, and the
  output array ends as that function.
-/
import proofs.«163679_g62732292325833_cont_9to1c4b_592_4_alg».proof.Proof.Gen.KernelIdeal.Frame
import proofs.«163679_g62732292325833_cont_9to1c4b_592_4_alg».proof.Proof.Payload
import proofs.«163679_g62732292325833_cont_9to1c4b_592_4_alg».proof.Proof.Spec

import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.KernelIdeal.Payload Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The block index of each window at each of the 25 points: the first window and the output move down the rows with the
    point, the other two stay at the origin. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem t_lt (t : Fin cfg2.N) : t.val < 25 := by have h := t.isLt; have e : cfg2.N = 25 := N_2; omega

/-- Row `p` of the first window's block at point `t` is row `400 t + p` of its array. -/
theorem blk0_at (c : Dev nD) (t : Fin cfg2.N) (p : Fin 400) (j : Fin 10000) :
    (iblk2 V c 0 t : Vec Ideal S400x10000 .bf16) (ix2 p j)
      = (V c main_call0_v3_1 : S10000x10000.Idx → EReal) (ix2 ⟨t.val * 400 + p.val, by have := t_lt t; have := p.isLt; omega⟩ j) := by
  obtain ⟨e0, e1, -⟩ := idx_facts t
  unfold iblk2
  rw [View.read_apply]
  show V c main_call0_v3_1 _ = V c main_call0_v3_1 _
  congr 1
  funext a
  apply Fin.ext
  match a with
  | ⟨0, _⟩ => show win2_0.index t (0 : Fin 2) * 400 + 1 * p.val = t.val * 400 + p.val; rw [e0]; omega
  | ⟨1, _⟩ => show win2_0.index t (1 : Fin 2) * 10000 + 1 * j.val = j.val; rw [e1]; omega

/-- The second window's block is its whole array. -/
theorem blk1_at (c : Dev nD) (t : Fin cfg2.N) (j : Fin 10000) (q : Fin 256) :
    (iblk2 V c 1 t : Vec Ideal S10000x256 .bf16) (ix2 j q) = (V c main_call0_v3_0 : S10000x256.Idx → EReal) (ix2 j q) := by
  obtain ⟨-, -, e0, e1, -⟩ := idx_facts t
  unfold iblk2
  rw [View.read_apply]
  show V c main_call0_v3_0 _ = V c main_call0_v3_0 _
  congr 1
  funext a
  apply Fin.ext
  match a with
  | ⟨0, _⟩ => show win2_1.index t (0 : Fin 2) * 10000 + 1 * j.val = j.val; rw [e0]; omega
  | ⟨1, _⟩ => show win2_1.index t (1 : Fin 2) * 256 + 1 * q.val = q.val; rw [e1]; omega

/-- The third window's block is its whole one-row array. -/
theorem blk2_at (c : Dev nD) (t : Fin cfg2.N) (q : Fin 256) :
    (iblk2 V c 2 t : Vec Ideal S1x256 .f32) (ix2 (0 : Fin 1) q) = (V c main_call0_v1 : S1x256.Idx → EReal) (ix2 (0 : Fin 1) q) := by
  obtain ⟨-, -, -, -, e0, e1, -⟩ := idx_facts t
  unfold iblk2
  rw [View.read_apply]
  show V c main_call0_v1 _ = V c main_call0_v1 _
  congr 1
  funext a
  apply Fin.ext
  match a with
  | ⟨0, _⟩ => show win2_2.index t (0 : Fin 2) * 1 + 1 * 0 = 0; rw [e0]
  | ⟨1, _⟩ => show win2_2.index t (1 : Fin 2) * 256 + 1 * q.val = q.val; rw [e1]; omega

/-- What point `t` writes back is block `t` of `adj · s + b` of the arrays the region finds. -/
theorem flushed_eq (c : Dev nD) (t : Fin cfg2.N) :
    (dat2 V c).flushed 3 t = ((cfg2.win 3).blk t).view.read (Elt Ideal)
      (Layer2 (V c main_call0_v3_1) (V c main_call0_v3_0) (V c main_call0_v1)) := by
  show (cfg2.win 3).cut (grid2.coords t) ((dat2 V c).after 3 t) = _
  rw [after2_3]
  unfold out2_3
  rw [View.canon_unit_zero hz]
  simp only [View.ld_unit_zero (S := S400x10000) hz, View.ld_unit_zero (S := S10000x256) hz, View.ld_unit_zero (S := S1x256) hz]
  funext y
  obtain ⟨p, q, rfl⟩ : ∃ (p : Fin 400) (q : Fin 256), y = ix2 p q := ⟨y 0, y 1, eq_ix2 y⟩
  show k2_pay1 (iblk2 V c 0 t) (iblk2 V c 1 t) (iblk2 V c 2 t) (ix2 p q) = _
  refine (pay2_at (iblk2 V c 0 t) (iblk2 V c 1 t) (iblk2 V c 2 t) p q).trans ?_
  rw [View.read_apply]
  show _ = Layer2 (V c main_call0_v3_1) (V c main_call0_v3_0) (V c main_call0_v1)
    (((View.whole main_v0).slice ((win2 3).rect t)).emb (ix2 p q))
  have hemb : ((View.whole main_v0).slice ((win2 3).rect t)).emb (ix2 p q)
      = ix2 (⟨t.val * 400 + p.val, by have := t_lt t; have := p.isLt; omega⟩ : Fin 10000) q := by
    obtain ⟨-, -, -, -, -, -, e0, e1⟩ := idx_facts t
    funext a
    apply Fin.ext
    match a with
    | ⟨0, _⟩ => show win2_3.index t (0 : Fin 2) * 400 + 1 * p.val = t.val * 400 + p.val; rw [e0]; omega
    | ⟨1, _⟩ => show win2_3.index t (1 : Fin 2) * 256 + 1 * q.val = q.val; rw [e1]; omega
  rw [hemb, Layer2_ix2]
  unfold layer2
  rw [blk2_at]
  refine congrArg (· + _) ?_
  exact Finset.sum_congr rfl fun j _ => by rw [blk0_at, blk1_at]

/-- An index of the output array is in point `t`'s block iff each coordinate is in the block's range on its axis. -/
theorem mem_blk (t : Fin cfg2.N) (i : S10000x256.Idx) :
    i ∈ ((cfg2.win 3).blk t).view.set ↔ ∀ a : Fin 2, win2_3.index t a * S400x256.size a ≤ (i a).val
      ∧ (i a).val < win2_3.index t a * S400x256.size a + S400x256.size a := by
  show i ∈ ((View.whole main_v0).slice (win2_3.rect t)).set ↔ _
  rw [View.set_slice_whole, Rect.mem_set_unit]
  exact Iff.rfl

/-- Row `r` of the output is in the block of point `r / 400`: the 25 blocks tile the rows. -/
theorem cover (i : S10000x256.Idx) : ∃ t : Fin cfg2.N, (cfg2.win 3).flush t = true ∧ i ∈ ((cfg2.win 3).blk t).view.set := by
  have hi0 : (i 0).val < 10000 := (i 0).isLt
  have hi1 : (i 1).val < 256 := (i 1).isLt
  have hN : cfg2.N = 25 := N_2
  obtain ⟨t, ht⟩ : ∃ t : Fin cfg2.N, t.val = (i 0).val / 400 := ⟨⟨(i 0).val / 400, by omega⟩, rfl⟩
  obtain ⟨-, -, -, -, -, -, e0, e1⟩ := idx_facts t
  refine ⟨t, flush2_3 t, ?_⟩
  rw [mem_blk]
  intro a
  match a with
  | ⟨0, _⟩ =>
    show win2_3.index t (0 : Fin 2) * 400 ≤ (i 0).val ∧ (i 0).val < win2_3.index t (0 : Fin 2) * 400 + 400
    rw [e0, ht]; omega
  | ⟨1, _⟩ =>
    show win2_3.index t (1 : Fin 2) * 256 ≤ (i 1).val ∧ (i 1).val < win2_3.index t (1 : Fin 2) * 256 + 256
    rw [e1]; omega

/-- The output array after the region is `adj · s + b` of the arrays the region finds. -/
theorem final (c : Dev nD) :
    (dat2 V c).arrAt 3 cfg2.N = Layer2 (V c main_call0_v3_1) (V c main_call0_v3_0) (V c main_call0_v1) :=
  (dat2 V c).arrAt_eq_of_cover 3 _ (fun t _ => flushed_eq V c t) cover

end Cert.KernelIdeal.Region2

end
-- ==== Proof.KernelValue.lean ====
/-
  The idealized kernel computes the specification.

  The buffer contents are followed through the four segment boundaries. The two host reshapes leave each argument as launched
  and make of each bias its one-row matrix. The first region leaves `x · W1` in its output array and everything else as it
  was; the second reads that array, the adjacency, the first bias row and `W2`, and leaves `relu (adj · (x · W1) + b1) · W2` and a
  copy of the adjacency; the third reads those two and the second bias row and leaves `adj · (…) + b2` in the result array.
  Composed, that is the specification's output.
-/
import proofs.«163679_g62732292325833_cont_9to1c4b_592_4_alg».proof.Proof.KernelRun
import proofs.«163679_g62732292325833_cont_9to1c4b_592_4_alg».proof.Proof.Region0
import proofs.«163679_g62732292325833_cont_9to1c4b_592_4_alg».proof.Proof.Region1
import proofs.«163679_g62732292325833_cont_9to1c4b_592_4_alg».proof.Proof.Region2
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Gcn

variable (m : (ℓ : Loc nD τ sig) → Buf (Elt Ideal) ℓ) (ρ : Dev nD → PrngReg)

/-! ## After the two reshapes -/

theorem entry_x (c : Dev nD) : (V1 m ρ c main_arg0 : S10000x256.Idx → EReal) = (m ((c : Thread nD τ).loc main_arg0)) := by
  show StableHlo.after hostOps0 (W0 m ρ c) (Proc.devRef .tc main_arg0) = _
  after_results
theorem entry_adj (c : Dev nD) : (V1 m ρ c main_arg1 : S10000x10000.Idx → EReal) = (m ((c : Thread nD τ).loc main_arg1)) := by
  show StableHlo.after hostOps0 (W0 m ρ c) (Proc.devRef .tc main_arg1) = _
  after_results
theorem entry_w1 (c : Dev nD) : (V1 m ρ c main_arg2 : S256x128.Idx → EReal) = (m ((c : Thread nD τ).loc main_arg2)) := by
  show StableHlo.after hostOps0 (W0 m ρ c) (Proc.devRef .tc main_arg2) = _
  after_results
theorem entry_w2 (c : Dev nD) : (V1 m ρ c main_arg4 : S128x256.Idx → EReal) = (m ((c : Thread nD τ).loc main_arg4)) := by
  show StableHlo.after hostOps0 (W0 m ρ c) (Proc.devRef .tc main_arg4) = _
  after_results

/-- The first bias reshaped to one row. -/
theorem entry_b1 (c : Dev nD) : (V1 m ρ c main_call0_v0 : S1x128.Idx → EReal) = rowOf (n := 128) (m ((c : Thread nD τ).loc main_arg3)) := by
  show StableHlo.after hostOps0 (W0 m ρ c) (Proc.devRef .tc main_call0_v0) = _
  after_results
  funext i
  show shapeCast S1x128 ((m ((c : Thread nD τ).loc main_arg3)) : S128.Idx → EReal) shapeCasts_S128_S1x128 i = _
  refine (shapeCast_addUnit_apply ![128] _ shapeCasts_S128_S1x128 i).trans ?_
  unfold rowOf
  refine congrArg _ (funext fun a => ?_)
  match a with
  | ⟨0, _⟩ => rfl

/-- The second bias reshaped to one row. -/
theorem entry_b2 (c : Dev nD) : (V1 m ρ c main_call0_v1 : S1x256.Idx → EReal) = rowOf (n := 256) (m ((c : Thread nD τ).loc main_arg5)) := by
  show StableHlo.after hostOps0 (W0 m ρ c) (Proc.devRef .tc main_call0_v1) = _
  after_results
  funext i
  show shapeCast S1x256 ((m ((c : Thread nD τ).loc main_arg5)) : S256.Idx → EReal) shapeCasts_S256_S1x256 i = _
  refine (shapeCast_addUnit_apply ![256] _ shapeCasts_S256_S1x256 i).trans ?_
  unfold rowOf
  refine congrArg _ (funext fun a => ?_)
  match a with
  | ⟨0, _⟩ => rfl

/-! ## After the first region -/

/-- The first region's output array holds `x · W1`. -/
theorem mid_s1 (c : Dev nD) : (V2 m ρ c main_call0_v2 : S10000x128.Idx → EReal) = Support1 (m ((c : Thread nD τ).loc main_arg0)) (m ((c : Thread nD τ).loc main_arg2)) :=
  (W2_arr m ρ c 2).trans ((Region0.final (V1 m ρ) c).trans (congrArg₂ Support1 (entry_x m ρ c) (entry_w1 m ρ c)))

theorem mid_adj (c : Dev nD) : (V2 m ρ c main_arg1 : S10000x10000.Idx → EReal) = (m ((c : Thread nD τ).loc main_arg1)) :=
  (W2_of_ne m ρ c main_arg1 (by decide)).trans (entry_adj m ρ c)
theorem mid_w2 (c : Dev nD) : (V2 m ρ c main_arg4 : S128x256.Idx → EReal) = (m ((c : Thread nD τ).loc main_arg4)) :=
  (W2_of_ne m ρ c main_arg4 (by decide)).trans (entry_w2 m ρ c)
theorem mid_b1 (c : Dev nD) : (V2 m ρ c main_call0_v0 : S1x128.Idx → EReal) = rowOf (n := 128) (m ((c : Thread nD τ).loc main_arg3)) :=
  (W2_of_ne m ρ c main_call0_v0 (by decide)).trans (entry_b1 m ρ c)
theorem mid_b2 (c : Dev nD) : (V2 m ρ c main_call0_v1 : S1x256.Idx → EReal) = rowOf (n := 256) (m ((c : Thread nD τ).loc main_arg5)) :=
  (W2_of_ne m ρ c main_call0_v1 (by decide)).trans (entry_b2 m ρ c)

/-! ## After the second region -/

/-- The second region's first output array holds `relu (adj · (x · W1) + b1) · W2`. -/
theorem late_s2 (c : Dev nD) :
    (V3 m ρ c main_call0_v3_0 : S10000x256.Idx → EReal) = Support2 (m ((c : Thread nD τ).loc main_arg0)) (m ((c : Thread nD τ).loc main_arg1)) (m ((c : Thread nD τ).loc main_arg2)) (m ((c : Thread nD τ).loc main_arg3)) (m ((c : Thread nD τ).loc main_arg4)) := by
  refine (W3_arr m ρ c 4).trans ((Region1.final4 (V2 m ρ) c).trans ?_)
  rw [mid_adj, mid_s1, mid_b1, mid_w2, Layer1_Support1]

/-- Its second output array holds the adjacency. -/
theorem late_adj (c : Dev nD) : (V3 m ρ c main_call0_v3_1 : S10000x10000.Idx → EReal) = (m ((c : Thread nD τ).loc main_arg1)) :=
  (W3_arr m ρ c 5).trans ((Region1.final5 (V2 m ρ) c).trans (mid_adj m ρ c))

theorem late_b2 (c : Dev nD) : (V3 m ρ c main_call0_v1 : S1x256.Idx → EReal) = rowOf (n := 256) (m ((c : Thread nD τ).loc main_arg5)) :=
  (W3_of_ne m ρ c main_call0_v1 (by decide)).trans (mid_b2 m ρ c)

/-! ## After the third region -/

/-- The result array holds the specification's output of the argument arrays. -/
theorem result_eq (c : Dev nD) :
    (W4 m ρ c (Proc.devRef .tc main_v0) : S10000x256.Idx → EReal) = Output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c 3).trans ((Region2.final (V3 m ρ) c).trans ?_)
  rw [late_adj, late_s2, late_b2, Layer2_Support2]

/-- The run, read: the result array at the specification's output of the argument arrays, the arguments unchanged. -/
theorem run : θ_run defs (onTc (τ := τ) (main (F := Ideal))) ⟨m, fun _ => 0, ρ⟩ (fun r => ∀ c : Dev nD,
      r.2.mem ((c.tc : Thread nD τ).loc main_v0) = Output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Cert.KernelIdeal.Run.run_boundary m ρ)

end Cert.KernelIdeal.KValue

end
-- ==== Proof.RefValue.lean ====
/-
  The reference computes the specification.

  The reference's run is thirteen host operations: four matrix products, two bias rows broadcast over the rows, one
  elementwise maximum with the zero splat and two additions. Read at row `p` and column `q`, each matrix product is the sum over its
  contracted axis of the left operand's row `p` times the right operand's column `q`; a broadcast bias is the bias at column
  `q`. Stage by stage these are the specification's formulas, with the same association of the products.
-/
import proofs.«163679_g62732292325833_cont_9to1c4b_592_4_alg».proof.Proof.Gen.ReferenceIdeal.Read
import proofs.«163679_g62732292325833_cont_9to1c4b_592_4_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.Gcn

/-! ## The operand indices of each product, at explicit coordinates -/

theorem lidx_v0 (p : Fin 10000) (q : Fin 128) (k : Fin 256) : lidx_main_v0 (ix2 p q) k = ix2 p k :=
  funext fun a => Fin.ext (by match a with | ⟨0, _⟩ => rfl | ⟨1, _⟩ => rfl)
theorem ridx_v0 (p : Fin 10000) (q : Fin 128) (k : Fin 256) : ridx_main_v0 (ix2 p q) k = ix2 k q :=
  funext fun a => Fin.ext (by match a with | ⟨0, _⟩ => rfl | ⟨1, _⟩ => rfl)
theorem lidx_v1 (p : Fin 10000) (q : Fin 128) (k : Fin 10000) : lidx_main_v1 (ix2 p q) k = ix2 p k :=
  funext fun a => Fin.ext (by match a with | ⟨0, _⟩ => rfl | ⟨1, _⟩ => rfl)
theorem ridx_v1 (p : Fin 10000) (q : Fin 128) (k : Fin 10000) : ridx_main_v1 (ix2 p q) k = ix2 k q :=
  funext fun a => Fin.ext (by match a with | ⟨0, _⟩ => rfl | ⟨1, _⟩ => rfl)
theorem lidx_v7 (p : Fin 10000) (q : Fin 256) (k : Fin 128) : lidx_main_v7 (ix2 p q) k = ix2 p k :=
  funext fun a => Fin.ext (by match a with | ⟨0, _⟩ => rfl | ⟨1, _⟩ => rfl)
theorem ridx_v7 (p : Fin 10000) (q : Fin 256) (k : Fin 128) : ridx_main_v7 (ix2 p q) k = ix2 k q :=
  funext fun a => Fin.ext (by match a with | ⟨0, _⟩ => rfl | ⟨1, _⟩ => rfl)
theorem lidx_v8 (p : Fin 10000) (q : Fin 256) (k : Fin 10000) : lidx_main_v8 (ix2 p q) k = ix2 p k :=
  funext fun a => Fin.ext (by match a with | ⟨0, _⟩ => rfl | ⟨1, _⟩ => rfl)
theorem ridx_v8 (p : Fin 10000) (q : Fin 256) (k : Fin 10000) : ridx_main_v8 (ix2 p q) k = ix2 k q :=
  funext fun a => Fin.ext (by match a with | ⟨0, _⟩ => rfl | ⟨1, _⟩ => rfl)
/-- The first bias, broadcast to a row and then over the rows, is read at its column. -/
theorem idx_b1 (p : Fin 10000) (q : Fin 128) : idx_main_v2 (idx_main_v3 (ix2 p q)) = ix1 q :=
  funext fun a => Fin.ext (by match a with | ⟨0, _⟩ => rfl)
/-- The second bias likewise. -/
theorem idx_b2 (p : Fin 10000) (q : Fin 256) : idx_main_v9 (idx_main_v10 (ix2 p q)) = ix1 q :=
  funext fun a => Fin.ext (by match a with | ⟨0, _⟩ => rfl)

/-! ## The stages -/

variable (x : Mat 10000 256) (adj : Mat 10000 10000) (w1 : Mat 256 128) (b1 : Row 128) (w2 : Mat 128 256) (b2 : Row 256)

/-- `x · W1`. -/
theorem v0_at (p : Fin 10000) (q : Fin 128) : val_main_v0 (F := Ideal) x w1 (ix2 p q) = support1 x w1 p q := by
  rw [val_main_v0_apply]
  unfold support1
  exact Finset.sum_congr rfl fun k _ => by rw [lidx_v0, ridx_v0]

/-- `adj · (x · W1)`. -/
theorem v1_at (p : Fin 10000) (q : Fin 128) :
    val_main_v1 (F := Ideal) x adj w1 (ix2 p q) = ∑ j : Fin 10000, adj (ix2 p j) * support1 x w1 j q := by
  rw [val_main_v1_apply]
  exact Finset.sum_congr rfl fun k _ => by rw [lidx_v1, ridx_v1, v0_at]

/-- `relu (adj · (x · W1) + b1)`. -/
theorem v6_at (p : Fin 10000) (q : Fin 128) : val_main_v6 (F := Ideal) x adj w1 b1 (ix2 p q) = hidden x adj w1 b1 p q := by
  rw [val_main_v6_apply, val_main_v4_apply, v1_at, val_main_v3_apply, val_main_v2_apply, idx_b1, val_main_v5_apply,
    val_main_cst_apply]
  rfl

/-- `hidden · W2`. -/
theorem v7_at (p : Fin 10000) (q : Fin 256) : val_main_v7 (F := Ideal) x adj w1 b1 w2 (ix2 p q) = support2 x adj w1 b1 w2 p q := by
  rw [val_main_v7_apply]
  unfold support2
  exact Finset.sum_congr rfl fun k _ => by rw [lidx_v7, ridx_v7, v6_at]

/-- `adj · (hidden · W2) + b2`. -/
theorem v11_at (p : Fin 10000) (q : Fin 256) :
    val_main_v11 (F := Ideal) x adj w1 b1 w2 b2 (ix2 p q) = output x adj w1 b1 w2 b2 p q := by
  rw [val_main_v11_apply, val_main_v8_apply, val_main_v10_apply, val_main_v9_apply, idx_b2]
  unfold output
  refine congrArg (· + b2 (ix1 q)) ?_
  exact Finset.sum_congr rfl fun k _ => by rw [lidx_v8, ridx_v8, v7_at]

/-- The reference's result array is the specification's output. -/
theorem result_eq : val_main_v11 (F := Ideal) x adj w1 b1 w2 b2 = Output x adj w1 b1 w2 b2 := by
  funext i
  obtain ⟨p, q, rfl⟩ : ∃ (p : Fin 10000) (q : Fin 256), i = ix2 p q := ⟨i 0, i 1, eq_ix2 i⟩
  rw [v11_at, Output_ix2]

end Cert.ReferenceIdeal.RefValue

end
-- ==== Proof.lean ====
/-
  A two-layer graph convolution with a dense adjacency: the kernel against its reference, over the extended reals.

      out = adj · (relu (adj · (x · W1) + b1) · W2) + b2

  The kernel computes this in three passes: `s1 = x · W1` in one block; then, for each block of 400 rows of the adjacency,
  `s2 = relu (adjblock · s1 + b1) · W2` together with a bf16 copy of the block; then, block by block again, `adjcopy · s2 + b2`.
  The reference computes the same products on whole arrays. On the extended reals a change of float format is the identity,
  a product into a zero accumulator is the plain sum over the contracted axis, and both programs associate the products the
  same way, so the two results agree entry by entry without any appeal to finiteness of the inputs: a finite sum on the
  extended reals does not depend on how its rows are tiled.

  Proof/Spec.lean states the function; Proof/RefValue.lean shows the reference computes it; Proof/Payload.lean reads each
  kernel body's arithmetic at an entry; Proof/Region0.lean, Region1.lean and Region2.lean turn each region's blocks into its output arrays;
  Proof/KernelRun.lean and Proof/KernelValue.lean follow the arrays through the run. The idealization rewrote nothing, so
  the word-level kernel's idealization claim is trivial.
-/
import proofs.«163679_g62732292325833_cont_9to1c4b_592_4_alg».proof.Defs
import proofs.«163679_g62732292325833_cont_9to1c4b_592_4_alg».proof.Proof.Gen.Kernel
import proofs.«163679_g62732292325833_cont_9to1c4b_592_4_alg».proof.Proof.Gen.Kernel.Skeleton
import proofs.«163679_g62732292325833_cont_9to1c4b_592_4_alg».proof.Proof.Gen.Kernel.Launch
import proofs.«163679_g62732292325833_cont_9to1c4b_592_4_alg».proof.Proof.Gen.Kernel.Points
import proofs.«163679_g62732292325833_cont_9to1c4b_592_4_alg».proof.Proof.Gen.Kernel.Frame
import proofs.«163679_g62732292325833_cont_9to1c4b_592_4_alg».proof.Proof.Gen.KernelIdeal
import proofs.«163679_g62732292325833_cont_9to1c4b_592_4_alg».proof.Proof.Gen.KernelIdeal.Skeleton
import proofs.«163679_g62732292325833_cont_9to1c4b_592_4_alg».proof.Proof.Gen.KernelIdeal.Launch
import proofs.«163679_g62732292325833_cont_9to1c4b_592_4_alg».proof.Proof.Gen.KernelIdeal.Points
import proofs.«163679_g62732292325833_cont_9to1c4b_592_4_alg».proof.Proof.Gen.KernelIdeal.Frame
import proofs.«163679_g62732292325833_cont_9to1c4b_592_4_alg».proof.Proof.Gen.ReferenceIdeal
import proofs.«163679_g62732292325833_cont_9to1c4b_592_4_alg».proof.Proof.Gen.ReferenceIdeal.Run
import proofs.«163679_g62732292325833_cont_9to1c4b_592_4_alg».proof.Proof.Gen.ReferenceIdeal.Read
import proofs.«163679_g62732292325833_cont_9to1c4b_592_4_alg».proof.Proof.Gen.Pre_finite_inputs
import proofs.«163679_g62732292325833_cont_9to1c4b_592_4_alg».proof.Proof.KernelValue
import proofs.«163679_g62732292325833_cont_9to1c4b_592_4_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six arguments, the idealized kernel's result array and the reference's both end at the
    specification's output of those arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [e0, e1, e2, e3, e4, e5, Cert.ReferenceIdeal.Read.val_main_v11_eq, Cert.ReferenceIdeal.RefValue.result_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
